-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S50000 : Shape := ⟨1, ![50000]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_arg7 : FVec F S64x64 .f32) (main_arg8 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S800000x64 .f32) (main_arg3 : FVec F S128x64 .f32) (main_arg4 : IVec S50000 32) (main_arg5 : FVec F S192x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S192x64 .f32 := Host.absf main_arg5
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S50000 : Shape := ⟨1, ![50000]⟩
abbrev S192x64 : Shape := ⟨2, ![192, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x64 : Shape := ⟨2, ![5000, 64]⟩
abbrev S1x64 : Shape := ⟨2, ![1, 64]⟩

abbrev nBuf : Space → Nat
  | .hbm => 40
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S_, .i32⟩
  | .hbm, ⟨28, _⟩ => ⟨S50000, .i32⟩
  | .hbm, ⟨29, _⟩ => ⟨S50000, .i1⟩
  | .hbm, ⟨30, _⟩ => ⟨S_, .i32⟩
  | .hbm, ⟨31, _⟩ => ⟨S50000, .i32⟩
  | .hbm, ⟨32, _⟩ => ⟨S50000, .i32⟩
  | .hbm, ⟨33, _⟩ => ⟨S50000, .i32⟩
  | .hbm, ⟨34, _⟩ => ⟨S50000x1, .i32⟩
  | .hbm, ⟨35, _⟩ => ⟨S50000x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S192x64_S64x64_0_0 : S192x64.Slices ![0, 0] S64x64
  slices_S192x64_S64x64_64_0 : S192x64.Slices ![64, 0] S64x64
  slices_S192x64_S64x64_128_0 : S192x64.Slices ![128, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S128x64_S50000x1_S50000x64_1_0_n_n_0_1_164_wf : GatherDims.WF S128x64 S50000x1 S50000x64 [1] [0] [] [0] [] 1 ![1, 64]
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S128x64_S50000x1_S50000x64_1_0_n_n_0_1_164 : GatherDims S128x64 S50000x1 S50000x64 where
  offsetDims := [1]
  collapsedSliceDims := [0]
  operandBatchingDims := []
  startIndicesBatchingDims := []
  startIndexMap := [0]
  indexVectorDim := 1
  sliceSizes := ![1, 64]
  wf := gather_S128x64_S50000x1_S50000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S50000 : Shape := ⟨1, ![50000]⟩
abbrev S192x64 : Shape := ⟨2, ![192, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x192 : Shape := ⟨2, ![50000, 192]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S_, .i32⟩
  | .hbm, ⟨28, _⟩ => ⟨S50000, .i32⟩
  | .hbm, ⟨29, _⟩ => ⟨S50000, .i1⟩
  | .hbm, ⟨30, _⟩ => ⟨S_, .i32⟩
  | .hbm, ⟨31, _⟩ => ⟨S50000, .i32⟩
  | .hbm, ⟨32, _⟩ => ⟨S50000, .i32⟩
  | .hbm, ⟨33, _⟩ => ⟨S50000, .i32⟩
  | .hbm, ⟨34, _⟩ => ⟨S50000x1, .i32⟩
  | .hbm, ⟨35, _⟩ => ⟨S50000x64, .f32⟩
  | .hbm, ⟨36, _⟩ => ⟨S50000x192, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S128x64_S50000x1_S50000x64_1_0_n_n_0_1_164_wf : GatherDims.WF S128x64 S50000x1 S50000x64 [1] [0] [] [0] [] 1 ![1, 64]
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S128x64_S50000x1_S50000x64_1_0_n_n_0_1_164 : GatherDims S128x64 S50000x1 S50000x64 where
  offsetDims := [1]
  collapsedSliceDims := [0]
  operandBatchingDims := []
  startIndicesBatchingDims := []
  startIndexMap := [0]
  indexVectorDim := 1
  sliceSizes := ![1, 64]
  wf := gather_S128x64_S50000x1_S50000x64_1_0_n_n_0_1_164_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Spec.lean ====
/-
  The node update of a message-passing layer, as one function of its arrays, index by index, on the extended reals.

  A node `a` (of 50000) carries three feature rows of width 64: its own features `x a`, the mean `ve a` of the
  attributes of the edges that leave it, and the global features `ug a` of the graph it belongs to. The update is a
  two-layer perceptron on the 192 numbers `[x a | ve a | ug a]`:

      hidden a k = max (Σ_p [x a | ve a | ug a] p · W1 (p, k) + b1 k) 0          (k < 64)
      out a j    = max (Σ_k hidden a k · W2 (k, j) + b2 j) 0                     (j < 64)

  The first layer's sum over the 192 joined columns is written here as it is computed block by block: the sum over
  the node's own 64 columns against rows 0..63 of `W1`, plus the sum over the edge mean's columns against rows
  64..127, plus the sum over the global columns against rows 128..191 (`layer1`, `rowsFrom`). That the one sum over
  192 columns IS these three sums added in this order is `sum_three_blocks`: a finite sum in a commutative monoid
  cut at 64 and at 128. Only associativity and commutativity of addition are used, which hold on all of the extended
  reals, so no entry needs to be finite.
-/
import Idealize.ShloMosaic.PureOps.Ideal.Laws
import Idealize.ShloMosaic.Lib.ValueIdx

noncomputable section

open scoped BigOperators

namespace Cert.NodeMlp

open Idealize.ShloMosaic Idealize.ShloMosaic.ValueIdx

/-- Index types of the arrays, by their literal extents. -/
abbrev INodes : Type := (⟨2, ![50000, 64]⟩ : Shape).Idx
abbrev IW1 : Type := (⟨2, ![192, 64]⟩ : Shape).Idx
abbrev IW : Type := (⟨2, ![64, 64]⟩ : Shape).Idx
abbrev IB : Type := (⟨1, ![64]⟩ : Shape).Idx

/-- Column `o + q` of the 192 joined columns, for a block that starts at `o` and has 64 columns. -/
abbrev shift (o : Nat) (ho : o + 64 ≤ 192) (q : Fin 64) : Fin 192 := ⟨o + q.val, by have := q.isLt; omega⟩

/-- Rows `o .. o + 63` of the first layer's weight matrix, as a 64×64 matrix. -/
def rowsFrom (o : Nat) (ho : o + 64 ≤ 192) (W1 : IW1 → EReal) : IW → EReal :=
  fun i => W1 (ix2 (shift o ho (i 0)) (i 1))

theorem rowsFrom_apply (o : Nat) (ho : o + 64 ≤ 192) (W1 : IW1 → EReal) (q k : Fin 64) :
    rowsFrom o ho W1 (ix2 q k) = W1 (ix2 (shift o ho q) k) := rfl

/-- One hidden unit: the three block sums added in order, the bias, the rectifier. `x ve ug` are the node's three rows,
    `wa wb wc` the unit's column of the three 64-row blocks of the weight matrix. -/
def layer1 (x ve ug wa wb wc : Fin 64 → EReal) (β : EReal) : EReal :=
  max ((((∑ q : Fin 64, x q * wa q) + ∑ q : Fin 64, ve q * wb q) + ∑ q : Fin 64, ug q * wc q) + β) 0

/-- One output unit: the hidden row against the unit's column of the second weight matrix, the bias, the rectifier. -/
def layer2 (h w : Fin 64 → EReal) (β : EReal) : EReal :=
  max ((∑ k : Fin 64, h k * w k) + β) 0

/-- The update at node `a`, column `b`, with the first layer's weights given as three 64×64 blocks. -/
def mlp3At (x ve ug : INodes → EReal) (wa wb wc : IW → EReal) (b1 : IB → EReal) (W2 : IW → EReal) (b2 : IB → EReal)
    (a : Fin 50000) (b : Fin 64) : EReal :=
  layer2
    (fun k => layer1 (fun q => x (ix2 a q)) (fun q => ve (ix2 a q)) (fun q => ug (ix2 a q))
      (fun q => wa (ix2 q k)) (fun q => wb (ix2 q k)) (fun q => wc (ix2 q k)) (b1 (ix1 k)))
    (fun k => W2 (ix2 k b)) (b2 (ix1 b))

/-- The update as an array. -/
def mlp3 (x ve ug : INodes → EReal) (wa wb wc : IW → EReal) (b1 : IB → EReal) (W2 : IW → EReal) (b2 : IB → EReal) :
    INodes → EReal :=
  fun i => mlp3At x ve ug wa wb wc b1 W2 b2 (i 0) (i 1)

theorem mlp3_apply (x ve ug : INodes → EReal) (wa wb wc : IW → EReal) (b1 : IB → EReal) (W2 : IW → EReal) (b2 : IB → EReal)
    (a : Fin 50000) (b : Fin 64) :
    mlp3 x ve ug wa wb wc b1 W2 b2 (ix2 a b) = mlp3At x ve ug wa wb wc b1 W2 b2 a b := rfl

/-- The update: the three blocks are rows 0.., 64.., 128.. of the one 192×64 weight matrix. -/
def mlp (x ve ug : INodes → EReal) (W1 : IW1 → EReal) (b1 : IB → EReal) (W2 : IW → EReal) (b2 : IB → EReal) :
    INodes → EReal :=
  mlp3 x ve ug (rowsFrom 0 (by decide) W1) (rowsFrom 64 (by decide) W1) (rowsFrom 128 (by decide) W1) b1 W2 b2

/-- A sum over 192 columns is the sum over columns 0..63, plus the sum over 64..127, plus the sum over 128..191. -/
theorem sum_three_blocks {M : Type*} [AddCommMonoid M] (f : Fin 192 → M) :
    ∑ p : Fin 192, f p
      = ((∑ q : Fin 64, f (shift 0 (by decide) q)) + ∑ q : Fin 64, f (shift 64 (by decide) q))
        + ∑ q : Fin 64, f (shift 128 (by decide) q) := by
  have h1 : ∑ p : Fin 192, f p
      = (∑ p : Fin 128, f (Fin.castAdd 64 p)) + ∑ q : Fin 64, f (Fin.natAdd 128 q) :=
    Fin.sum_univ_add (a := 128) (b := 64) f
  have h2 : ∑ p : Fin 128, f (Fin.castAdd 64 p)
      = (∑ q : Fin 64, f (Fin.castAdd 64 (Fin.castAdd 64 q))) + ∑ q : Fin 64, f (Fin.castAdd 64 (Fin.natAdd 64 q)) :=
    Fin.sum_univ_add (a := 64) (b := 64) fun p : Fin 128 => f (Fin.castAdd 64 p)
  rw [h1, h2]
  refine congrArg₂ (· + ·) (congrArg₂ (· + ·) ?_ ?_) ?_
  · exact Finset.sum_congr rfl fun q _ => congrArg f (Fin.ext (Nat.zero_add _).symm)
  · exact Finset.sum_congr rfl fun q _ => congrArg f (Fin.ext rfl)
  · exact Finset.sum_congr rfl fun q _ => congrArg f (Fin.ext rfl)

end Cert.NodeMlp

end
-- ==== Proof.Body.lean ====
/-
  What one grid point computes: the kernel body's stored value read at an entry of its block.

  The body loads a block of 5000 node rows of each of the three inputs, the three 64×64 blocks of the first weight
  matrix, the second weight matrix and the two biases, and stores
  `max (max (X·A + VE·B + UG·C + b1) 0 · W2 + b2) 0`, every matrix product taken into a zero accumulator and every
  rounding to a shorter format the identity on the extended reals. Read at row `r` and column `b` of the block this is
  the two-layer update of `Spec` on row `r` of the three input blocks: each product at an entry is the textbook sum
  over the 64 contracted positions, a bias row broadcast down the block reads its entry at the column, and the zero
  the rectifiers compare with is the number 0.
-/
import proofs.«170604_j42606075576611_1_alg».proof.Proof.Gen.KernelIdeal.Skeleton
import proofs.«170604_j42606075576611_1_alg».proof.Proof.LibMatmulNN
import proofs.«170604_j42606075576611_1_alg».proof.Proof.Spec
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx Cert.NodeMlp

/-- A product of a 5000×64 block with a 64×64 matrix into the zero accumulator, at an entry. -/
theorem prod_at {φ₁ φ₂ : FTy} (A : FVec Ideal S5000x64 φ₁) (B : FVec Ideal S64x64 φ₂) (r : Fin 5000) (b : Fin 64) :
    matmul dot_S5000x64_S64x64_S5000x64_1_0_0_1_n_n none A B (constant (F := Ideal) S5000x64 .f32 0x00000000#32) (ix2 r b)
      = ∑ k : Fin 64, A (ix2 r k) * B (ix2 k b) :=
  Cert.LibMatmulNN.matmul_zero_apply' (M := 5000) (K := 64) (N := 64) dot_S5000x64_S64x64_S5000x64_1_0_0_1_n_n
    rfl rfl rfl rfl rfl rfl none A B r b

/-- A bias vector laid as one row and broadcast down the block reads, at `(r, b)`, its entry `b`. -/
theorem bias_at (v : Vec Ideal S64 .f32) (r : Fin 5000) (b : Fin 64) :
    broadcastTo S5000x64 (shapeCast S1x64 v shapeCasts_S64_S1x64) broadcasts_S1x64_S5000x64 (ix2 r b) = v (ix1 b) := by
  rw [broadcastTo_1b_ab_apply, shapeCast_a_1a_apply]

/-- The same with the vector typed by its float format. -/
theorem bias_at' (v : FVec Ideal S64 .f32) (r : Fin 5000) (b : Fin 64) :
    broadcastTo S5000x64 (shapeCast S1x64 v shapeCasts_S64_S1x64) broadcasts_S1x64_S5000x64 (ix2 r b) = v (ix1 b) :=
  bias_at v r b

/-- The body's stored value at row `r`, column `b` of the block: the two-layer update on row `r` of the loaded blocks. -/
theorem stored_at (x0 x1 x2 : Vec Ideal S5000x64 .f32) (x3 x4 x5 : Vec Ideal S64x64 .f32) (x6 : Vec Ideal S64 .f32)
    (x7 : Vec Ideal S64x64 .f32) (x8 : Vec Ideal S64 .f32) (r : Fin 5000) (b : Fin 64) :
    k0_pay1 (k0_pay2 x0 x1 x2 x3 x4 x5 x6 x7 x8) (k0_pay3 (F := Ideal)) (ix2 r b)
      = layer2
          (fun k => layer1 (fun q => x0 (ix2 r q)) (fun q => x1 (ix2 r q)) (fun q => x2 (ix2 r q))
            (fun q => x3 (ix2 q k)) (fun q => x4 (ix2 q k)) (fun q => x5 (ix2 q k)) (x6 (ix1 k)))
          (fun k => x7 (ix2 k b)) (x8 (ix1 b)) := by
  unfold k0_pay1 k0_pay2 k0_pay3
  simp only [shapeCast_self, maximumf_apply, addf_apply, broadcast_apply]
  rw [prod_at, bias_at]
  simp only [truncf_apply, maximumf_apply, addf_apply, broadcast_apply, prod_at, bias_at, bias_at']
  unfold layer2 layer1
  simp only [Ideal.ofBits_def, Ideal.ofBits_zero_f32]

end Cert.KernelIdeal.Hand

end
-- ==== Proof.KernelValue.lean ====
/-
  The kernel's result array after the run is the node update of `Spec` of the arrays the region finds.

  The grid has ten points; point `t` works on node rows `5000 t .. 5000 t + 4999`: its blocks of the three inputs and of
  the output are those rows, all 64 columns, and its blocks of the weight matrices and of the biases are the whole
  arrays, whatever `t` (`index_facts`, decided over the ten points). So an entry `(r, b)` of the block point `t`
  writes back is the update at node `5000 t + r`, column `b` (`written_back`: the stored value of `Body` on the point's
  blocks, each block entry read off its array). Every node row lies in the block of the point `row / 5000`
  (`covered`), so the whole result array is the update (`result_array`).

  The region finds the node features and the second layer's weights and biases as launched; the edge mean, the
  gathered global features and the three row blocks of the first weight matrix were written by the host operations
  before it, and are read here as those operations' terms (`found_*`).
-/
import proofs.«170604_j42606075576611_1_alg».proof.Proof.Gen.KernelIdeal.Value
import proofs.«170604_j42606075576611_1_alg».proof.Proof.Body
import Idealize.ShloMosaic.Lib.Pipeline.Value
import Idealize.ShloMosaic.Lib.StableHlo.Run
import Idealize.ShloMosaic.Lib.ValueLayout

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx Cert.NodeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ## Where each window's block sits -/

/-- The printed index maps over the ten grid points: the row windows (the three inputs, the output) are at block row
    `t`, block column 0; the weight and bias windows are at block 0 throughout. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0) :=
  (by decide +kernel : ∀ t : Fin grid0.N, _)

/-- Node row `5000 t + r`: row `r` of point `t`'s block. -/
def nodeOf (t : Fin cfg0.N) (r : Fin 5000) : Fin 50000 :=
  ⟨t.val * 5000 + r.val, by have hN : cfg0.N = 10 := N_0; have := t.isLt; have := r.isLt; omega⟩

/-! ## Where a block entry sits in its array -/

theorem x_entry (t : Fin cfg0.N) (r : Fin 5000) (q : Fin 64) :
    ((cfg0.win 0).blk t).view.emb (ix2 r q) = (ix2 (nodeOf t r) q : S50000x64.Idx) := by
  refine funext fun a => Fin.ext ?_
  obtain ⟨e0, e1⟩ := (index_facts t).1
  match a with
  | ⟨0, _⟩ => show win0_0.index t (0 : Fin 2) * 5000 + 1 * r.val = t.val * 5000 + r.val; rw [e0]; omega
  | ⟨1, _⟩ => show win0_0.index t (1 : Fin 2) * 64 + 1 * q.val = q.val; rw [e1]; omega

theorem ve_entry (t : Fin cfg0.N) (r : Fin 5000) (q : Fin 64) :
    ((cfg0.win 1).blk t).view.emb (ix2 r q) = (ix2 (nodeOf t r) q : S50000x64.Idx) := by
  refine funext fun a => Fin.ext ?_
  obtain ⟨e0, e1⟩ := (index_facts t).2.1
  match a with
  | ⟨0, _⟩ => show win0_1.index t (0 : Fin 2) * 5000 + 1 * r.val = t.val * 5000 + r.val; rw [e0]; omega
  | ⟨1, _⟩ => show win0_1.index t (1 : Fin 2) * 64 + 1 * q.val = q.val; rw [e1]; omega

theorem ug_entry (t : Fin cfg0.N) (r : Fin 5000) (q : Fin 64) :
    ((cfg0.win 2).blk t).view.emb (ix2 r q) = (ix2 (nodeOf t r) q : S50000x64.Idx) := by
  refine funext fun a => Fin.ext ?_
  obtain ⟨e0, e1⟩ := (index_facts t).2.2.1
  match a with
  | ⟨0, _⟩ => show win0_2.index t (0 : Fin 2) * 5000 + 1 * r.val = t.val * 5000 + r.val; rw [e0]; omega
  | ⟨1, _⟩ => show win0_2.index t (1 : Fin 2) * 64 + 1 * q.val = q.val; rw [e1]; omega

theorem wa_entry (t : Fin cfg0.N) (q k : Fin 64) :
    ((cfg0.win 3).blk t).view.emb (ix2 q k) = (ix2 q k : S64x64.Idx) := by
  refine funext fun a => Fin.ext ?_
  obtain ⟨e0, e1⟩ := (index_facts t).2.2.2.1
  match a with
  | ⟨0, _⟩ => show win0_3.index t (0 : Fin 2) * 64 + 1 * q.val = q.val; rw [e0]; omega
  | ⟨1, _⟩ => show win0_3.index t (1 : Fin 2) * 64 + 1 * k.val = k.val; rw [e1]; omega

theorem wb_entry (t : Fin cfg0.N) (q k : Fin 64) :
    ((cfg0.win 4).blk t).view.emb (ix2 q k) = (ix2 q k : S64x64.Idx) := by
  refine funext fun a => Fin.ext ?_
  obtain ⟨e0, e1⟩ := (index_facts t).2.2.2.2.1
  match a with
  | ⟨0, _⟩ => show win0_4.index t (0 : Fin 2) * 64 + 1 * q.val = q.val; rw [e0]; omega
  | ⟨1, _⟩ => show win0_4.index t (1 : Fin 2) * 64 + 1 * k.val = k.val; rw [e1]; omega

theorem wc_entry (t : Fin cfg0.N) (q k : Fin 64) :
    ((cfg0.win 5).blk t).view.emb (ix2 q k) = (ix2 q k : S64x64.Idx) := by
  refine funext fun a => Fin.ext ?_
  obtain ⟨e0, e1⟩ := (index_facts t).2.2.2.2.2.1
  match a with
  | ⟨0, _⟩ => show win0_5.index t (0 : Fin 2) * 64 + 1 * q.val = q.val; rw [e0]; omega
  | ⟨1, _⟩ => show win0_5.index t (1 : Fin 2) * 64 + 1 * k.val = k.val; rw [e1]; omega

theorem b1_entry (t : Fin cfg0.N) (k : Fin 64) :
    ((cfg0.win 6).blk t).view.emb (ix1 k) = (ix1 k : S64.Idx) := by
  refine funext fun a => Fin.ext ?_
  have e0 := (index_facts t).2.2.2.2.2.2.1
  match a with
  | ⟨0, _⟩ => show win0_6.index t (0 : Fin 1) * 64 + 1 * k.val = k.val; rw [e0]; omega

theorem w2_entry (t : Fin cfg0.N) (q k : Fin 64) :
    ((cfg0.win 7).blk t).view.emb (ix2 q k) = (ix2 q k : S64x64.Idx) := by
  refine funext fun a => Fin.ext ?_
  obtain ⟨e0, e1⟩ := (index_facts t).2.2.2.2.2.2.2.1
  match a with
  | ⟨0, _⟩ => show win0_7.index t (0 : Fin 2) * 64 + 1 * q.val = q.val; rw [e0]; omega
  | ⟨1, _⟩ => show win0_7.index t (1 : Fin 2) * 64 + 1 * k.val = k.val; rw [e1]; omega

theorem b2_entry (t : Fin cfg0.N) (k : Fin 64) :
    ((cfg0.win 8).blk t).view.emb (ix1 k) = (ix1 k : S64.Idx) := by
  refine funext fun a => Fin.ext ?_
  have e0 := (index_facts t).2.2.2.2.2.2.2.2.1
  match a with
  | ⟨0, _⟩ => show win0_8.index t (0 : Fin 1) * 64 + 1 * k.val = k.val; rw [e0]; omega

theorem out_entry (t : Fin cfg0.N) (r : Fin 5000) (q : Fin 64) :
    ((cfg0.win 9).blk t).view.emb (ix2 r q) = (ix2 (nodeOf t r) q : S50000x64.Idx) := by
  refine funext fun a => Fin.ext ?_
  obtain ⟨e0, e1⟩ := (index_facts t).2.2.2.2.2.2.2.2.2
  match a with
  | ⟨0, _⟩ => show win0_9.index t (0 : Fin 2) * 5000 + 1 * r.val = t.val * 5000 + r.val; rw [e0]; omega
  | ⟨1, _⟩ => show win0_9.index t (1 : Fin 2) * 64 + 1 * q.val = q.val; rw [e1]; omega

/-! ## A block entry read off its array: for ANY array, so that nothing here depends on what the array holds -/

theorem x_read (A : S50000x64.Idx → EReal) (t : Fin cfg0.N) (r : Fin 5000) (q : Fin 64) :
    ((cfg0.win 0).blk t).view.read (Elt Ideal) A (ix2 r q) = A (ix2 (nodeOf t r) q) := by
  rw [View.read_apply]
  exact congrArg A (x_entry t r q)

theorem ve_read (A : S50000x64.Idx → EReal) (t : Fin cfg0.N) (r : Fin 5000) (q : Fin 64) :
    ((cfg0.win 1).blk t).view.read (Elt Ideal) A (ix2 r q) = A (ix2 (nodeOf t r) q) := by
  rw [View.read_apply]
  exact congrArg A (ve_entry t r q)

theorem ug_read (A : S50000x64.Idx → EReal) (t : Fin cfg0.N) (r : Fin 5000) (q : Fin 64) :
    ((cfg0.win 2).blk t).view.read (Elt Ideal) A (ix2 r q) = A (ix2 (nodeOf t r) q) := by
  rw [View.read_apply]
  exact congrArg A (ug_entry t r q)

theorem wa_read (A : S64x64.Idx → EReal) (t : Fin cfg0.N) (q k : Fin 64) :
    ((cfg0.win 3).blk t).view.read (Elt Ideal) A (ix2 q k) = A (ix2 q k) := by
  rw [View.read_apply]
  exact congrArg A (wa_entry t q k)

theorem wb_read (A : S64x64.Idx → EReal) (t : Fin cfg0.N) (q k : Fin 64) :
    ((cfg0.win 4).blk t).view.read (Elt Ideal) A (ix2 q k) = A (ix2 q k) := by
  rw [View.read_apply]
  exact congrArg A (wb_entry t q k)

theorem wc_read (A : S64x64.Idx → EReal) (t : Fin cfg0.N) (q k : Fin 64) :
    ((cfg0.win 5).blk t).view.read (Elt Ideal) A (ix2 q k) = A (ix2 q k) := by
  rw [View.read_apply]
  exact congrArg A (wc_entry t q k)

theorem b1_read (A : S64.Idx → EReal) (t : Fin cfg0.N) (k : Fin 64) :
    ((cfg0.win 6).blk t).view.read (Elt Ideal) A (ix1 k) = A (ix1 k) := by
  rw [View.read_apply]
  exact congrArg A (b1_entry t k)

theorem w2_read (A : S64x64.Idx → EReal) (t : Fin cfg0.N) (k b : Fin 64) :
    ((cfg0.win 7).blk t).view.read (Elt Ideal) A (ix2 k b) = A (ix2 k b) := by
  rw [View.read_apply]
  exact congrArg A (w2_entry t k b)

theorem b2_read (A : S64.Idx → EReal) (t : Fin cfg0.N) (b : Fin 64) :
    ((cfg0.win 8).blk t).view.read (Elt Ideal) A (ix1 b) = A (ix1 b) := by
  rw [View.read_apply]
  exact congrArg A (b2_entry t b)

/-! ## The point's input blocks, entry by entry, off the arrays the region finds -/

theorem x_block (c : Dev nD) (t : Fin cfg0.N) (r : Fin 5000) (q : Fin 64) :
    (iblk m c 0 t : Vec Ideal S5000x64 .f32) (ix2 r q) = (V m c (Pipeline.arrRef spec0 0) : S50000x64.Idx → EReal) (ix2 (nodeOf t r) q) :=
  x_read _ t r q

theorem ve_block (c : Dev nD) (t : Fin cfg0.N) (r : Fin 5000) (q : Fin 64) :
    (iblk m c 1 t : Vec Ideal S5000x64 .f32) (ix2 r q) = (V m c (Pipeline.arrRef spec0 1) : S50000x64.Idx → EReal) (ix2 (nodeOf t r) q) :=
  ve_read _ t r q

theorem ug_block (c : Dev nD) (t : Fin cfg0.N) (r : Fin 5000) (q : Fin 64) :
    (iblk m c 2 t : Vec Ideal S5000x64 .f32) (ix2 r q) = (V m c (Pipeline.arrRef spec0 2) : S50000x64.Idx → EReal) (ix2 (nodeOf t r) q) :=
  ug_read _ t r q

theorem wa_block (c : Dev nD) (t : Fin cfg0.N) (q k : Fin 64) :
    (iblk m c 3 t : Vec Ideal S64x64 .f32) (ix2 q k) = (V m c (Pipeline.arrRef spec0 3) : S64x64.Idx → EReal) (ix2 q k) :=
  wa_read _ t q k

theorem wb_block (c : Dev nD) (t : Fin cfg0.N) (q k : Fin 64) :
    (iblk m c 4 t : Vec Ideal S64x64 .f32) (ix2 q k) = (V m c (Pipeline.arrRef spec0 4) : S64x64.Idx → EReal) (ix2 q k) :=
  wb_read _ t q k

theorem wc_block (c : Dev nD) (t : Fin cfg0.N) (q k : Fin 64) :
    (iblk m c 5 t : Vec Ideal S64x64 .f32) (ix2 q k) = (V m c (Pipeline.arrRef spec0 5) : S64x64.Idx → EReal) (ix2 q k) :=
  wc_read _ t q k

theorem b1_block (c : Dev nD) (t : Fin cfg0.N) (k : Fin 64) :
    (iblk m c 6 t : Vec Ideal S64 .f32) (ix1 k) = (V m c (Pipeline.arrRef spec0 6) : S64.Idx → EReal) (ix1 k) :=
  b1_read _ t k

theorem w2_block (c : Dev nD) (t : Fin cfg0.N) (k b : Fin 64) :
    (iblk m c 7 t : Vec Ideal S64x64 .f32) (ix2 k b) = (V m c (Pipeline.arrRef spec0 7) : S64x64.Idx → EReal) (ix2 k b) :=
  w2_read _ t k b

theorem b2_block (c : Dev nD) (t : Fin cfg0.N) (b : Fin 64) :
    (iblk m c 8 t : Vec Ideal S64 .f32) (ix1 b) = (V m c (Pipeline.arrRef spec0 8) : S64.Idx → EReal) (ix1 b) :=
  b2_read _ t b

/-! ## What a point writes back -/

theorem layer1_congr {x ve ug wa wb wc x' ve' ug' wa' wb' wc' : Fin 64 → EReal} {β β' : EReal}
    (h0 : ∀ q, x q = x' q) (h1 : ∀ q, ve q = ve' q) (h2 : ∀ q, ug q = ug' q)
    (h3 : ∀ q, wa q = wa' q) (h4 : ∀ q, wb q = wb' q) (h5 : ∀ q, wc q = wc' q) (h6 : β = β') :
    layer1 x ve ug wa wb wc β = layer1 x' ve' ug' wa' wb' wc' β' := by
  rw [funext h0, funext h1, funext h2, funext h3, funext h4, funext h5, h6]

theorem layer2_congr {h w h' w' : Fin 64 → EReal} {β β' : EReal}
    (h0 : ∀ k, h k = h' k) (h1 : ∀ k, w k = w' k) (h2 : β = β') : layer2 h w β = layer2 h' w' β' := by
  rw [funext h0, funext h1, h2]

/-- The update of the arrays as the region finds them: window `w`'s array is `Pipeline.arrRef spec0 w`. -/
def found (c : Dev nD) : S50000x64.Idx → EReal :=
  mlp3 (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))

/-- WHAT POINT `t` WRITES BACK is block `t` of the update of the arrays the region finds. -/
theorem written_back (c : Dev nD) (t : Fin cfg0.N) :
    (dats m 0 c).flushed 9 t = ((cfg0.win 9).blk t).view.read (Elt Ideal) (found m c) := by
  rw [flushed9]
  unfold out0_9
  rw [View.canon_unit_zero hz]
  simp only [View.ld_unit_zero (S := S5000x64) hz, View.ld_unit_zero (S := S64x64) hz, View.ld_unit_zero (S := S64) hz1]
  funext j
  show k0_pay1 (k0_pay2 (iblk m c 0 t) (iblk m c 1 t) (iblk m c 2 t) (iblk m c 3 t) (iblk m c 4 t) (iblk m c 5 t)
      (iblk m c 6 t) (iblk m c 7 t) (iblk m c 8 t)) (k0_pay3 (F := Ideal)) j = found m c (((cfg0.win 9).blk t).view.emb j)
  obtain ⟨r, b, rfl⟩ : ∃ (r : Fin 5000) (b : Fin 64), j = ix2 r b := ⟨j 0, j 1, eq_ix2 (n0 := 5000) (n1 := 64) j⟩
  rw [out_entry]
  refine (stored_at (iblk m c 0 t) (iblk m c 1 t) (iblk m c 2 t) (iblk m c 3 t) (iblk m c 4 t) (iblk m c 5 t)
      (iblk m c 6 t) (iblk m c 7 t) (iblk m c 8 t) r b).trans ?_
  unfold found
  rw [mlp3_apply]
  unfold mlp3At
  exact layer2_congr
    (fun k => layer1_congr (fun q => x_block m c t r q) (fun q => ve_block m c t r q) (fun q => ug_block m c t r q)
      (fun q => wa_block m c t q k) (fun q => wb_block m c t q k) (fun q => wc_block m c t q k) (b1_block m c t k))
    (fun k => w2_block m c t k b) (b2_block m c t b)

/-! ## The blocks cover the array -/

theorem mem_block (t : Fin cfg0.N) (i : S50000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v24).slice (win0_9.rect t)).set ↔ _
  rw [View.set_slice_whole, Rect.mem_set_unit]
  exact Iff.rfl

/-- Node row `a` is in the block of point `a / 5000`. -/
theorem covered (i : S50000x64.Idx) :
    ∃ t : Fin cfg0.N, (cfg0.win 9).flush t = true ∧ i ∈ ((cfg0.win 9).blk t).view.set := by
  have hN : cfg0.N = 10 := N_0
  have h0 : (i 0).val < 50000 := (i 0).isLt
  have h1 : (i 1).val < 64 := (i 1).isLt
  have ht : (i 0).val / 5000 < cfg0.N := by rw [hN]; omega
  obtain ⟨e0, e1⟩ := (index_facts ⟨(i 0).val / 5000, ht⟩).2.2.2.2.2.2.2.2.2
  refine ⟨⟨(i 0).val / 5000, ht⟩, flush0_9 _, ?_⟩
  rw [mem_block]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 64 ≤ (i 1).val
      ∧ (i 1).val < win0_9.index ⟨(i 0).val / 5000, ht⟩ (1 : Fin 2) * 64 + 64
    rw [e1]
    omega

/-- THE RESULT ARRAY after the run is the update of the arrays the region finds. -/
theorem result_array (c : Dev nD) : (dats m 0 c).arrAt 9 cfg0.N = found m c :=
  (dats m 0 c).arrAt_eq_of_cover 9 (found m c) (fun t _ => written_back m c t) covered

end Cert.KernelIdeal.Hand

end
-- ==== Proof.Found.lean ====
/-
  The arrays the host operations before the region write, as the region finds them.

  Before the kernel is launched the host computes the edge mean (a scatter-add of the edge attributes by source node
  divided by the clipped edge count), gathers each node's global feature row, and cuts the first layer's 192×64 weight
  matrix into its three 64-row blocks. The reference computes the edge mean and the gathered rows by the very same
  operations, so those two arrays are stated here AS the reference's stages of the launch arrays and are never opened;
  the three weight blocks are rows 0.., 64.., 128.. of the weight matrix (`rowsFrom`).
-/
import proofs.«170604_j42606075576611_1_alg».proof.Proof.Gen.KernelIdeal.Frame
import proofs.«170604_j42606075576611_1_alg».proof.Proof.Gen.ReferenceIdeal.Read
import proofs.«170604_j42606075576611_1_alg».proof.Proof.Spec
import Idealize.ShloMosaic.Lib.StableHlo.Run
import Idealize.ShloMosaic.Lib.ValueLayout

noncomputable section

namespace Cert.KernelIdeal.HostSide

open Cert.KernelIdeal Cert.KernelIdeal.Gen
open Idealize.ShloMosaic Idealize.ShloMosaic.TcCoe Idealize.SL.Sem Idealize.ShloMosaic.ValueIdx Idealize.ShloMosaic.StableHlo
open Cert.NodeMlp

variable (m : (ℓ : Loc nD τ sig) → Buf (Elt Ideal) ℓ)

/-- A cut of 64 rows of the 192×64 matrix from row `o` is `rowsFrom o`. -/
theorem slice_rows (o : Nat) (ho : o + 64 ≤ 192) (W1 : IW1 → EReal)
    (h : (⟨2, ![192, 64]⟩ : Shape).Slices ![o, 0] ⟨2, ![64, 64]⟩) :
    extractStridedSlice ⟨2, ![64, 64]⟩ ![o, 0] W1 h = rowsFrom o ho W1 := by
  funext i
  obtain ⟨q, k, rfl⟩ : ∃ (q k : Fin 64), i = ix2 q k := ⟨i 0, i 1, eq_ix2 i⟩
  exact slice2_axis0_eq o W1 h q k

/-- The edge mean the region finds is the reference's edge-mean stage of the launch arrays. -/
theorem found_ve (c : Dev nD) :
    (V m c main_v13 : S50000x64.Idx → EReal)
      = Cert.ReferenceIdeal.Read.val_main_v13 (F := Ideal) (m ((c : Thread nD τ).loc main_arg1)) (m ((c : Thread nD τ).loc main_arg2)) := by
  dsimp only [Gen.V, Gen.hostOps0]
  after_results_simp <;> rfl

/-- The gathered global features the region finds are the reference's gather stage of the launch arrays. -/
theorem found_ug (c : Dev nD) :
    (V m c main_v20 : S50000x64.Idx → EReal)
      = Cert.ReferenceIdeal.Read.val_main_v20 (F := Ideal) (m ((c : Thread nD τ).loc main_arg3)) (m ((c : Thread nD τ).loc main_arg4)) := by
  dsimp only [Gen.V, Gen.hostOps0]
  after_results_simp <;> rfl

/-- The first weight block is rows 0..63 of the weight matrix. -/
theorem found_wa (c : Dev nD) :
    (V m c main_v21 : S64x64.Idx → EReal) = rowsFrom 0 (by decide) (m ((c : Thread nD τ).loc main_arg5)) := by
  have e : (V m c main_v21 : S64x64.Idx → EReal)
      = extractStridedSlice S64x64 ![0, 0] (m ((c : Thread nD τ).loc main_arg5)) Gen.slices_S192x64_S64x64_0_0 := by
    dsimp only [Gen.V, Gen.hostOps0]
    after_results_simp <;> rfl
  rw [e]
  exact slice_rows 0 _ _ _

/-- The second is rows 64..127. -/
theorem found_wb (c : Dev nD) :
    (V m c main_v22 : S64x64.Idx → EReal) = rowsFrom 64 (by decide) (m ((c : Thread nD τ).loc main_arg5)) := by
  have e : (V m c main_v22 : S64x64.Idx → EReal)
      = extractStridedSlice S64x64 ![64, 0] (m ((c : Thread nD τ).loc main_arg5)) Gen.slices_S192x64_S64x64_64_0 := by
    dsimp only [Gen.V, Gen.hostOps0]
    after_results_simp <;> rfl
  rw [e]
  exact slice_rows 64 _ _ _

/-- The third is rows 128..191. -/
theorem found_wc (c : Dev nD) :
    (V m c main_v23 : S64x64.Idx → EReal) = rowsFrom 128 (by decide) (m ((c : Thread nD τ).loc main_arg5)) := by
  have e : (V m c main_v23 : S64x64.Idx → EReal)
      = extractStridedSlice S64x64 ![128, 0] (m ((c : Thread nD τ).loc main_arg5)) Gen.slices_S192x64_S64x64_128_0 := by
    dsimp only [Gen.V, Gen.hostOps0]
    after_results_simp <;> rfl
  rw [e]
  exact slice_rows 128 _ _ _

end Cert.KernelIdeal.HostSide

end
-- ==== Proof.KernelRun.lean ====
/-
  The kernel's run, read: the result array ends holding the node update of `Spec` of the LAUNCH arrays.

  `KernelValue` gives the result array as the update of the arrays the region finds (window `w`'s array, which is the
  buffer the launch names for it); `Found` says what those are in
  terms of the launch arrays (the node features, the second layer's weights and the biases untouched; the edge mean
  and the gathered global features the host stages; the three weight blocks the rows of the one weight matrix).
  Substituting, the result is `mlp` of the node features, the edge-mean stage, the gather stage, the weight matrix,
  the biases and the second weight matrix, and the arguments are unchanged.
-/
import proofs.«170604_j42606075576611_1_alg».proof.Proof.KernelValue
import proofs.«170604_j42606075576611_1_alg».proof.Proof.Found

noncomputable section

namespace Cert.KernelIdeal.Hand

open Cert.KernelIdeal Cert.KernelIdeal.Gen Cert.KernelIdeal.Value
open Idealize.ShloMosaic Idealize.ShloMosaic.TcCoe Idealize.SL.Sem Cert.NodeMlp

variable (m : (ℓ : Loc nD τ sig) → Buf (Elt Ideal) ℓ) (ρ : Dev nD → PrngReg)

theorem mlp3_congr {x ve ug x' ve' ug' : INodes → EReal} {wa wb wc wa' wb' wc' : IW → EReal} {b1 b1' : IB → EReal}
    {W2 W2' : IW → EReal} {b2 b2' : IB → EReal}
    (h0 : x = x') (h1 : ve = ve') (h2 : ug = ug') (h3 : wa = wa') (h4 : wb = wb') (h5 : wc = wc')
    (h6 : b1 = b1') (h7 : W2 = W2') (h8 : b2 = b2') :
    mlp3 x ve ug wa wb wc b1 W2 b2 = mlp3 x' ve' ug' wa' wb' wc' b1' W2' b2' := by
  rw [h0, h1, h2, h3, h4, h5, h6, h7, h8]

/-- The update of the launch arrays: the result both programs compute. -/
def result (c : Dev nD) : S50000x64.Idx → EReal :=
  mlp (m ((c : Thread nD τ).loc main_arg0))
    (Cert.ReferenceIdeal.Read.val_main_v13 (F := Ideal) (m ((c : Thread nD τ).loc main_arg1)) (m ((c : Thread nD τ).loc main_arg2)))
    (Cert.ReferenceIdeal.Read.val_main_v20 (F := Ideal) (m ((c : Thread nD τ).loc main_arg3)) (m ((c : Thread nD τ).loc main_arg4)))
    (m ((c : Thread nD τ).loc main_arg5)) (m ((c : Thread nD τ).loc main_arg6)) (m ((c : Thread nD τ).loc main_arg7))
    (m ((c : Thread nD τ).loc main_arg8))

/-- The update of the arrays the region finds is the update of the launch arrays. -/
theorem found_eq (c : Dev nD) : found m c = result m c := by
  unfold found result mlp
  exact mlp3_congr
    (Eq.trans (b := V m c main_arg0) rfl (V_main_arg0 m c))
    (Eq.trans (b := V m c main_v13) rfl (HostSide.found_ve m c))
    (Eq.trans (b := V m c main_v20) rfl (HostSide.found_ug m c))
    (Eq.trans (b := V m c main_v21) rfl (HostSide.found_wa m c))
    (Eq.trans (b := V m c main_v22) rfl (HostSide.found_wb m c))
    (Eq.trans (b := V m c main_v23) rfl (HostSide.found_wc m c))
    (Eq.trans (b := V m c main_arg6) rfl (V_main_arg6 m c))
    (Eq.trans (b := V m c main_arg7) rfl (V_main_arg7 m c))
    (Eq.trans (b := V m c main_arg8) rfl (V_main_arg8 m c))

/-- Every weakly fair execution of the idealized kernel program terminates with the result array at `result` and the
    argument arrays unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((result_array m c).trans (found_eq m c)), (h c).2⟩)
    (run_blocks m ρ)

end Cert.KernelIdeal.Hand

end
-- ==== Proof.RefSide.lean ====
/-
  The reference computes the node update of `Spec`.

  The reference joins the node's own features, the edge mean and the gathered global features into one 50000×192
  array, multiplies it by the 192×64 weight matrix, adds the bias, rectifies, multiplies by the 64×64 matrix, adds
  the second bias and rectifies. Read at an entry `(a, b)`: the second product is the sum over the 64 hidden units,
  each hidden unit is the sum over the 192 joined columns of the joined row times a column of the weight matrix, a
  joined column `o + q` (`o` = 0, 64, 128) is column `q` of the first, second, third joined array, and the sum over 192
  columns is the three sums over 64 columns added in order (`sum_three_blocks`). The edge mean and the gathered
  features are left as they are computed on the host: nothing here opens them.
-/
import proofs.«170604_j42606075576611_1_alg».proof.Proof.Gen.ReferenceIdeal.Read
import proofs.«170604_j42606075576611_1_alg».proof.Proof.Spec
import Idealize.ShloMosaic.Lib.Pipeline.Value

noncomputable section

open scoped BigOperators

namespace Cert.ReferenceIdeal.RefValue

open Cert.ReferenceIdeal Cert.ReferenceIdeal.Gen Cert.ReferenceIdeal.Read
open Idealize.ShloMosaic Idealize.ShloMosaic.ValueIdx Cert.NodeMlp

/-! ## The joined array at a column of each of its three parts -/

section joined
variable (x y z : S50000x64.Idx → EReal) (a : Fin 50000) (q : Fin 64)

theorem joined_first :
    concatenate S50000x192 1 [⟨S50000x64, x⟩, ⟨S50000x64, y⟩, ⟨S50000x64, z⟩]
      concatenates_S50000x64_S50000x64_S50000x64_S50000x192_d1 (ix2 a (shift 0 (by decide) q)) = x (ix2 a q) :=
  concatenate_apply_piece (t := S50000x192) (1 : Fin 2) [⟨S50000x64, x⟩, ⟨S50000x64, y⟩, ⟨S50000x64, z⟩] _ _ 0 (by show (0 : Nat) < 3; decide) S50000x64 x rfl rfl 0 rfl (ix2 a q)
    (fun b hb => by
      match b with
      | ⟨0, _⟩ => rfl
      | ⟨1, _⟩ => exact absurd rfl hb)
    rfl

theorem joined_second :
    concatenate S50000x192 1 [⟨S50000x64, x⟩, ⟨S50000x64, y⟩, ⟨S50000x64, z⟩]
      concatenates_S50000x64_S50000x64_S50000x64_S50000x192_d1 (ix2 a (shift 64 (by decide) q)) = y (ix2 a q) :=
  concatenate_apply_piece (t := S50000x192) (1 : Fin 2) [⟨S50000x64, x⟩, ⟨S50000x64, y⟩, ⟨S50000x64, z⟩] _ _ 1 (by show (1 : Nat) < 3; decide) S50000x64 y rfl rfl 64 rfl (ix2 a q)
    (fun b hb => by
      match b with
      | ⟨0, _⟩ => rfl
      | ⟨1, _⟩ => exact absurd rfl hb)
    rfl

theorem joined_third :
    concatenate S50000x192 1 [⟨S50000x64, x⟩, ⟨S50000x64, y⟩, ⟨S50000x64, z⟩]
      concatenates_S50000x64_S50000x64_S50000x64_S50000x192_d1 (ix2 a (shift 128 (by decide) q)) = z (ix2 a q) :=
  concatenate_apply_piece (t := S50000x192) (1 : Fin 2) [⟨S50000x64, x⟩, ⟨S50000x64, y⟩, ⟨S50000x64, z⟩] _ _ 2 (by show (2 : Nat) < 3; decide) S50000x64 z rfl rfl 128 rfl (ix2 a q)
    (fun b hb => by
      match b with
      | ⟨0, _⟩ => rfl
      | ⟨1, _⟩ => exact absurd rfl hb)
    rfl

end joined

/-! ## The indices the products and the bias broadcasts read -/

theorem hidden_of_out (a : Fin 50000) (b k : Fin 64) : lidx_main_v27 (ix2 a b) k = ix2 a k :=
  funext fun c => Fin.ext (by match c with | ⟨0, _⟩ => rfl | ⟨1, _⟩ => rfl)

theorem w2_of_out (a : Fin 50000) (b k : Fin 64) : ridx_main_v27 (ix2 a b) k = ix2 k b :=
  funext fun c => Fin.ext (by match c with | ⟨0, _⟩ => rfl | ⟨1, _⟩ => rfl)

theorem joined_of_hidden (a : Fin 50000) (k : Fin 64) (p : Fin 192) : lidx_main_v22 (ix2 a k) p = ix2 a p :=
  funext fun c => Fin.ext (by match c with | ⟨0, _⟩ => rfl | ⟨1, _⟩ => rfl)

theorem w1_of_hidden (a : Fin 50000) (k : Fin 64) (p : Fin 192) : ridx_main_v22 (ix2 a k) p = ix2 p k :=
  funext fun c => Fin.ext (by match c with | ⟨0, _⟩ => rfl | ⟨1, _⟩ => rfl)

theorem b2_of_out (a : Fin 50000) (b : Fin 64) : idx_main_v28 (idx_main_v29 (ix2 a b)) = ix1 b :=
  funext fun c => Fin.ext (by match c with | ⟨0, _⟩ => rfl)

theorem b1_of_hidden (a : Fin 50000) (k : Fin 64) : idx_main_v23 (idx_main_v24 (ix2 a k)) = ix1 k :=
  funext fun c => Fin.ext (by match c with | ⟨0, _⟩ => rfl)

/-! ## The reference's result is the update -/

/-- The reference's last stage, as a function of the arguments, is `mlp` of the node features, the edge mean and the
    gathered global features (the two host stages kept whole), the weights and the biases. -/
theorem result_eq (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (x3 : (⟨S128x64, .f32⟩ : BufTy).Contents (Elt Ideal))
    (x4 : (⟨S50000, .i32⟩ : BufTy).Contents (Elt Ideal)) (x5 : (⟨S192x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) :
    val_main_v31 (F := Ideal) x0 x1 x2 x3 x4 x5 x6 x7 x8
      = mlp x0 (val_main_v13 (F := Ideal) x1 x2) (val_main_v20 (F := Ideal) x3 x4) x5 x6 x7 x8 := by
  funext i
  obtain ⟨a, b, rfl⟩ : ∃ (a : Fin 50000) (b : Fin 64), i = ix2 a b := ⟨i 0, i 1, eq_ix2 i⟩
  rw [val_main_v31_apply, val_main_v30_apply, val_main_v27_apply, val_main_v29_apply, val_main_v28_apply,
    val_main_call1_v0_apply, val_main_call1_cst_apply]
  simp only [val_main_v26_apply, val_main_v25_apply, val_main_v22_apply, val_main_v24_apply, val_main_v23_apply,
    val_main_call0_v0_apply, val_main_call0_cst_apply, hidden_of_out, w2_of_out, joined_of_hidden, w1_of_hidden,
    b2_of_out, b1_of_hidden, sum_three_blocks]
  unfold val_main_v21
  simp only [joined_first, joined_second, joined_third, Ideal.maximumf_def, Ideal.addf_def, Ideal.ofBits_def,
    Ideal.ofBits_zero_f32]
  rfl

end Cert.ReferenceIdeal.RefValue

end
-- ==== Proof.lean ====
/-
  The certificate: a gridded kernel for the node update of a message-passing layer against its plain reference.

  Both programs first compute, on the host and by the same operations, the mean of each node's outgoing edge
  attributes and each node's gathered global feature row. The reference then joins them with the node features into
  192 columns and applies a two-layer perceptron with rectifiers; the kernel cuts the first weight matrix into its three
  64-row blocks and, for each block of 5000 nodes, adds the three partial products instead of joining the columns. On the
  extended reals a rounding to a shorter float format is the identity and a sum over the 192 joined columns is the three
  sums over 64 columns added up, so both results are one function of the arguments (`Cert.NodeMlp.mlp`):
  `KernelRun` reads the kernel's run as that function, `RefSide` the reference's.

  The three frames are the generated frame runs; the idealization rewrote nothing, so `preserves` is trivial.
-/
import proofs.«170604_j42606075576611_1_alg».proof.Defs
import proofs.«170604_j42606075576611_1_alg».proof.Proof.Gen.Kernel
import proofs.«170604_j42606075576611_1_alg».proof.Proof.Gen.Kernel.Skeleton
import proofs.«170604_j42606075576611_1_alg».proof.Proof.Gen.Kernel.Launch
import proofs.«170604_j42606075576611_1_alg».proof.Proof.Gen.Kernel.Points
import proofs.«170604_j42606075576611_1_alg».proof.Proof.Gen.Kernel.Frame
import proofs.«170604_j42606075576611_1_alg».proof.Proof.Gen.KernelIdeal
import proofs.«170604_j42606075576611_1_alg».proof.Proof.Gen.KernelIdeal.Skeleton
import proofs.«170604_j42606075576611_1_alg».proof.Proof.Gen.KernelIdeal.Launch
import proofs.«170604_j42606075576611_1_alg».proof.Proof.Gen.KernelIdeal.Points
import proofs.«170604_j42606075576611_1_alg».proof.Proof.Gen.KernelIdeal.Frame
import proofs.«170604_j42606075576611_1_alg».proof.Proof.Gen.ReferenceIdeal
import proofs.«170604_j42606075576611_1_alg».proof.Proof.Gen.Pre_finite_inputs
import proofs.«170604_j42606075576611_1_alg».proof.Proof.Gen.KernelIdeal.Value
import proofs.«170604_j42606075576611_1_alg».proof.Proof.Gen.ReferenceIdeal.Run
import proofs.«170604_j42606075576611_1_alg».proof.Proof.Gen.ReferenceIdeal.Read
import proofs.«170604_j42606075576611_1_alg».proof.Proof.KernelRun
import proofs.«170604_j42606075576611_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the node update of the arguments: the kernel by
    its run read block by block, the reference by its run read stage by stage. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq]
  obtain ⟨a0, a1, a2, a3, a4, a5, a6, a7, a8⟩ := hagree c
  rw [a0, a1, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
